-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64 : Shape := ⟨2, ![4, 64]⟩
abbrev S4x4096x64 : Shape := ⟨3, ![4, 4096, 64]⟩
abbrev S1 : Shape := ⟨1, ![1]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4x64 .f32) (main_arg1 : FVec F S4x4096x64 .f32) (main_arg2 : FVec F S1 .f32) : IVec S_ 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4x64 : Shape := ⟨2, ![4, 64]⟩
abbrev S4x4096x64 : Shape := ⟨3, ![4, 4096, 64]⟩
abbrev S1 : Shape := ⟨1, ![1]⟩
abbrev S_ : Shape := ⟨0, ![]⟩
abbrev S4x1x64 : Shape := ⟨3, ![4, 1, 64]⟩
abbrev S4x4096x4096 : Shape := ⟨3, ![4, 4096, 4096]⟩
abbrev S1x1x64 : Shape := ⟨3, ![1, 1, 64]⟩
abbrev S1x2048x64 : Shape := ⟨3, ![1, 2048, 64]⟩
abbrev S1x1024x64 : Shape := ⟨3, ![1, 1024, 64]⟩
abbrev S1x2048x1024 : Shape := ⟨3, ![1, 2048, 1024]⟩
abbrev S2048x64 : Shape := ⟨2, ![2048, 64]⟩
abbrev S2048x1 : Shape := ⟨2, ![2048, 1]⟩
abbrev S64 : Shape := ⟨1, ![64]⟩
abbrev S1x64 : Shape := ⟨2, ![1, 64]⟩
abbrev S2048 : Shape := ⟨1, ![2048]⟩
abbrev S1024x64 : Shape := ⟨2, ![1024, 64]⟩
abbrev S1024 : Shape := ⟨1, ![1024]⟩
abbrev S1x1024 : Shape := ⟨2, ![1, 1024]⟩
abbrev S2048x1024 : Shape := ⟨2, ![2048, 1024]⟩

abbrev nBuf : Space → Nat
  | .hbm => 13
  | .vmem => 10
  | .smem => 0
  | _ => 0

abbrev bufTy : (tb : Table) → Fin (tcTables nBuf tb) → BufTy
  | .hbm, ⟨0, _⟩ => ⟨S4x64, .f32⟩
  | .hbm, ⟨1, _⟩ => ⟨S4x4096x64, .f32⟩
  | .hbm, ⟨2, _⟩ => ⟨S1, .f32⟩
  | .hbm, ⟨3, _⟩ => ⟨S_, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S_, .f32⟩
  | .hbm, ⟨9, _⟩ => ⟨S4x64, .f32⟩
  | .hbm, ⟨10, _⟩ => ⟨S4x64, .f32⟩
  | .hbm, ⟨11, _⟩ => ⟨S4x1x64, .f32⟩
  | .hbm, ⟨12, _⟩ => ⟨S4x4096x4096, .f32⟩
  | .local _ .vmem, ⟨0, _⟩ => ⟨S1x1x64, .f32⟩
  | .local _ .vmem, ⟨1, _⟩ => ⟨S1x1x64, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | .local _ .vmem, ⟨6, _⟩ => ⟨S1x2048x1024, .f32⟩
  | .local _ .vmem, ⟨7, _⟩ => ⟨S1x2048x1024, .f32⟩
  | .local _ .vmem, ⟨8, _⟩ => ⟨S2048x64, .bf16⟩
  | .local _ .vmem, ⟨9, _⟩ => ⟨S2048x1, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S1_S_ : S1.ShapeCasts S_
  bcast_S_S4x64 : S_.BroadcastsInDim S4x64 (![] : Fin 0 → Fin S4x64.rank)
  bcast_S4x64_S4x1x64_0_2 : S4x64.BroadcastsInDim S4x1x64 (![0, 2] : Fin 2 → Fin S4x1x64.rank)
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S64_S1x64 : S64.ShapeCasts S1x64
  broadcasts_S1x64_S2048x64 : S1x64.Broadcasts S2048x64
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  broadcasts_S1x64_S1024x64 : S1x64.Broadcasts S1024x64
  reduces_S1024x64_S1024 : S1024x64.Reduces [1] S1024
  shapeCasts_S1024_S1x1024 : S1024.ShapeCasts S1x1024
  broadcasts_S2048x1_S2048x1024 : S2048x1.Broadcasts S2048x1024
  broadcasts_S1x1024_S2048x1024 : S1x1024.Broadcasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64.size a ≤ S4x1x64.size a
  hwx0_0 : ∀ i : grid0.Coords, EltTy.bits .f32 = 32 ∨ (Rect.block (s := S4x1x64) S1x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S4x4096x64.size a
  hwx0_1 : ∀ i : grid0.Coords, EltTy.bits .f32 = 32 ∨ (Rect.block (s := S4x4096x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .f32 = 32 ∨ (Rect.block (s := S4x4096x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S4x4096x4096.size a
  hwx0_3 : ∀ i : grid0.Coords, EltTy.bits .f32 = 32 ∨ (Rect.block (s := S4x4096x4096) S1x2048x1024.size (cc0_transform_3 i) (hinb0_3 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v6) S1x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64 : Shape := ⟨2, ![4, 64]⟩
abbrev S4x4096x64 : Shape := ⟨3, ![4, 4096, 64]⟩
abbrev S1 : Shape := ⟨1, ![1]⟩
abbrev S_ : Shape := ⟨0, ![]⟩
abbrev S4x1x64 : Shape := ⟨3, ![4, 1, 64]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x4096x64, .f32⟩
  | .hbm, ⟨2, _⟩ => ⟨S1, .f32⟩
  | .hbm, ⟨3, _⟩ => ⟨S_, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S_, .f32⟩
  | .hbm, ⟨9, _⟩ => ⟨S4x64, .f32⟩
  | .hbm, ⟨10, _⟩ => ⟨S4x64, .f32⟩
  | .hbm, ⟨11, _⟩ => ⟨S4x1x64, .f32⟩
  | .hbm, ⟨12, _⟩ => ⟨S4x4096x64, .f32⟩
  | .hbm, ⟨13, _⟩ => ⟨S4x4096x64, .f32⟩
  | .hbm, ⟨14, _⟩ => ⟨S4x4096x64, .f32⟩
  | .hbm, ⟨15, _⟩ => ⟨S_, .f32⟩
  | .hbm, ⟨16, _⟩ => ⟨S4x4096, .f32⟩
  | .hbm, ⟨17, _⟩ => ⟨S4x4096x4096, .f32⟩
  | .hbm, ⟨18, _⟩ => ⟨S4x4096x1, .f32⟩
  | .hbm, ⟨19, _⟩ => ⟨S4x1x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S1_S_ : S1.ShapeCasts S_
  bcast_S_S4x64 : S_.BroadcastsInDim S4x64 (![] : Fin 0 → Fin S4x64.rank)
  bcast_S4x64_S4x1x64_0_2 : S4x64.BroadcastsInDim S4x1x64 (![0, 2] : Fin 2 → Fin S4x1x64.rank)
  bcast_S4x1x64_S4x4096x64_0_1_2 : S4x1x64.BroadcastsInDim S4x4096x64 (![0, 1, 2] : Fin 3 → Fin S4x4096x64.rank)
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.WordRegion.lean ====
/-
  The pairwise weighted squared distance kernel, the region's surroundings: the per-batch weights w = max(G,0)^(2t)
  are computed by host operations before the one kernel region, so the region finds the arrays at the contents those
  operations leave; the three argument arrays are written by none of them. Each window's block at a grid point is
  read off those contents. The body branches on the third grid coordinate (the column tile j): at j = 0 it fills the
  two scratch buffers from the row tile, at every j it stores the output tile.
-/
import proofs.«134669_j14499809591883_2_alg».proof.Proof.Gen.Kernel.Launch
import proofs.«134669_j14499809591883_2_alg».proof.Proof.Gen.Kernel.Skeleton
import proofs.«134669_j14499809591883_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers of core `c` as the region finds them: after the host operations that compute the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations writes the eigenvalue array G. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- None writes the embedding array V. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- None writes the exponent t. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the pipeline fetched it there or kept
    it from the point before (the block index has not moved then). One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch: is this the first column tile of its row tile? -/

/-- The condition of the body's conditional, from the grid coordinates: the column-tile coordinate is zero. -/
abbrev firstCol (i : grid0.Coords) : Prop := (Scalar.cmpi .ne (Scalar.extui (Scalar.cmpi .eq (BitVec.ofNat 32 (i 2).val) 0#32)) 0#32) = 1#1
/-- The grid runs the column tiles innermost, four per row tile: the condition holds at the points ≡ 0 (mod 4). -/
theorem firstCol_iff : ∀ t : Fin cfg0.N, firstCol (grid0.coords t) ↔ t.val % 4 = 0 :=
  (by decide +kernel : ∀ t : Fin grid0.N, firstCol (grid0.coords t) ↔ t.val % 4 = 0)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

/-- One staging buffer of the output window, through which its contents are stated. -/
abbrev VO : View sig .tc .vmem S1x2048x1024 .f32 := (Memref.whole cc0_stg3_0 : Memref sig .tc .vmem S1x2048x1024 .f32).view
/-- Each window's current staging memref at point `t`, and its wholeness. -/
abbrev ms0 (t : Fin cfg0.N) : Memref sig .tc .vmem S1x1x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)
/-- The two scratch buffers: the weighted row tile (the matrix product's left operand) and its weighted squared norms. -/
abbrev scA : Memref sig .tc .vmem S2048x64 .bf16 := Memref.whole cc0_scratch0
abbrev scB : Memref sig .tc .vmem S2048x1 .f32 := Memref.whole cc0_scratch1
abbrev VA : View sig .tc .vmem S2048x64 .bf16 := scA.view
abbrev VB : View sig .tc .vmem S2048x1 .f32 := scB.view

/-- The scoped buffers that are no staging buffer are the two scratch buffers, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scA fullShare d) ∗ (∃ d, owns (c : Thread nD τ) scB fullShare d)) := by
  rw [scopedRest0_eq]; simp only [scA, scB, owns_whole]; try rfl

end Cert.Kernel.Dist

end
-- ==== Proof.WordRunFirst.lean ====
/-
  The body's run at a grid point that is the first column tile of its row tile: it loads the weights and the row
  tile, stores the row tile's weighted squared norms and the weighted row tile into the two scratch buffers, then loads
  the column tile, reads the scratch buffers back and stores the output tile. What each written buffer ends with is
  found by the run as a list of written pieces.
-/
import proofs.«134669_j14499809591883_2_alg».proof.Proof.WordRegion

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the three input windows' at their contents, the output window's and the two scratch buffers at
    anything — the body at a first-column point runs to the continuation holding the inputs as they were and each of
    the other three with its pieces written. -/
noncomputable def runFirst (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) :
    Σ' (L3 : List (View.Piece (Elt F) S1x2048x1024 .f32)), Σ' (LA : List (View.Piece (Elt F) S2048x64 .bf16)), { LB : List (View.Piece (Elt F) S2048x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LB)) -∗ K ⟨⟩))
          ⊢ wp frame (wpE (defs₀ (F := F)) Variants.none c none) E (cc0__dist_kernel i arg3 harg3 arg4 harg4 arg5 harg5 arg6 harg6 arg7 harg7 arg8 harg8) K } := by
  refine ⟨?_, ?_, ?_, fun E K => ?run⟩
  case run =>
    simp only [cc0__dist_kernel_eq_skeleton]; unfold cc0__dist_kernel_skel
    unfold owns
    iintro ⟨⟨%f0, %hf0, H0⟩, ⟨%f1, %hf1, H1⟩, ⟨%f2, %hf2, H2⟩, ⟨%d3, %f3, -, H3⟩, ⟨%dA, %fA, -, HA⟩, ⟨%dB, %fB, -, HB⟩, Hk⟩
    obtain rfl := harg3.eq_unread hf0; obtain rfl := harg4.eq_unread hf1; obtain rfl := harg5.eq_unread hf2
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HA]; · iexists _; iexact HA
    iexists _; iexact HB

end Cert.Kernel.Dist

end
-- ==== Proof.WordRunLater.lean ====
/-
  The body's run at a grid point that is a later column tile of its row tile: the scratch buffers are not written;
  the body loads the weights and the column tile, reads the two scratch buffers and stores the output tile.
-/
import proofs.«134669_j14499809591883_2_alg».proof.Proof.WordRunFirst

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the input windows' and the two scratch buffers at their contents, the output window's at
    anything — the body at a later-column point runs to the continuation holding all of those as they were and the
    output's with its pieces written. -/
noncomputable def runLater (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : ¬firstCol i)
    (x0 : Vec F S1x1x64 .f32) (x1 : Vec F S1x2048x64 .f32) (x2 : Vec F S1x1024x64 .f32) (xa : Vec F S2048x64 .bf16) (xb : Vec F S2048x1 .f32) :
    { L3 : List (View.Piece (Elt F) S1x2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xa ∗ owns (c : Thread nD τ) arg8 fullShare xb
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xa ∗ owns (c : Thread nD τ) arg8 fullShare xb) -∗ K ⟨⟩))
          ⊢ wp frame (wpE (defs₀ (F := F)) Variants.none c none) E (cc0__dist_kernel i arg3 harg3 arg4 harg4 arg5 harg5 arg6 harg6 arg7 harg7 arg8 harg8) K } := by
  refine ⟨?_, fun E K => ?run⟩
  case run =>
    simp only [cc0__dist_kernel_eq_skeleton]; unfold cc0__dist_kernel_skel
    unfold owns
    iintro ⟨⟨%f0, %hf0, H0⟩, H1, ⟨%f2, %hf2, H2⟩, ⟨%d3, %f3, -, H3⟩, ⟨%fA, %hfA, HA⟩, ⟨%fB, %hfB, HB⟩, Hk⟩
    obtain rfl := harg3.eq_unread hf0; obtain rfl := harg5.eq_unread hf2
    obtain rfl := harg7.eq_unread hfA; obtain rfl := harg8.eq_unread hfB
    sl_exec (disch := exact hc)
    sl_step
    iapply Hk
    isplitl [H0]
    · iexists _; isplitr; · ipureintro; exact harg3.read_unread _
      iexact H0
    isplitl [H1]; · iexact H1
    isplitl [H2]
    · iexists _; isplitr; · ipureintro; exact harg5.read_unread _
      iexact H2
    isplitl [H3]; · iexists _; iexact H3
    isplitl [HA]
    · iexists _; isplitr; · ipureintro; exact harg7.read_unread _
      iexact HA
    iexists _; isplitr; · ipureintro; exact harg8.read_unread _
    iexact HB

end Cert.Kernel.Dist

end
-- ==== Proof.WordFrame.lean ====
/-
  The run of the distance kernel's region and what it leaves. The grid has 4·2·4 = 32 points, the column tile
  innermost: the points t with t mod 4 = 0 are the first column tile of a (batch, row tile) pair, and the row tile's
  block of the embedding array does not move over the following three points. So after every point t the two scratch
  buffers hold the weighted row tile and its weighted squared norms computed from the blocks at the point
  t - t mod 4 that started the row tile, and the output tile stored at t is the body's value of the weights' block,
  the column tile's block and those two. The embedding array is read through two windows (the row tile and the
  column tile): its buffer is held in two half shares, one per window.
-/
import proofs.«134669_j14499809591883_2_alg».proof.Proof.WordRunLater
import Idealize.ShloMosaic.Lib.Pipeline.Value

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What one run of the body leaves -/

theorem cover3_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) (y : S1x2048x1024.Idx) :
    ∃ pc ∈ (runFirst c i arg3 harg3 arg4 harg4 arg5 harg5 arg6 harg6 arg7 harg7 arg8 harg8 hc x0 x1 x2).1, y ∈ pc.1.set :=
  View.cover_of_tiledL (runFirst c i arg3 harg3 arg4 harg4 arg5 harg5 arg6 harg6 arg7 harg7 arg8 harg8 hc x0 x1 x2).1 S1x2048x1024.size (by sl_kernel_rfl) y
theorem coverA_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) (y : S2048x64.Idx) :
    ∃ pc ∈ (runFirst c i arg3 harg3 arg4 harg4 arg5 harg5 arg6 harg6 arg7 harg7 arg8 harg8 hc x0 x1 x2).2.1, y ∈ pc.1.set :=
  View.cover_of_tiledL (runFirst c i arg3 harg3 arg4 harg4 arg5 harg5 arg6 harg6 arg7 harg7 arg8 harg8 hc x0 x1 x2).2.1 S2048x64.size (by sl_kernel_rfl) y
theorem coverB_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) (y : S2048x1.Idx) :
    ∃ pc ∈ (runFirst c i arg3 harg3 arg4 harg4 arg5 harg5 arg6 harg6 arg7 harg7 arg8 harg8 hc x0 x1 x2).2.2.1, y ∈ pc.1.set :=
  View.cover_of_tiledL (runFirst c i arg3 harg3 arg4 harg4 arg5 harg5 arg6 harg6 arg7 harg7 arg8 harg8 hc x0 x1 x2).2.2.1 S2048x1.size (by sl_kernel_rfl) y
theorem cover3_later (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : ¬firstCol i)
    (x0 : Vec F S1x1x64 .f32) (x1 : Vec F S1x2048x64 .f32) (x2 : Vec F S1x1024x64 .f32) (xa : Vec F S2048x64 .bf16) (xb : Vec F S2048x1 .f32) (y : S1x2048x1024.Idx) :
    ∃ pc ∈ (runLater c i arg3 harg3 arg4 harg4 arg5 harg5 arg6 harg6 arg7 harg7 arg8 harg8 hc x0 x1 x2 xa xb).1, y ∈ pc.1.set :=
  View.cover_of_tiledL (runLater c i arg3 harg3 arg4 harg4 arg5 harg5 arg6 harg6 arg7 harg7 arg8 harg8 hc x0 x1 x2 xa xb).1 S1x2048x1024.size (by sl_kernel_rfl) y

/-- At a first-column point the output tile is the body's value of the weights, the column tile and the two scratch
    values just computed from the weights and the row tile. -/
theorem out3_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) :
    VO.read (Elt F) (VO.writes (Elt F) VO.junk (runFirst c i arg3 harg3 arg4 harg4 arg5 harg5 arg6 harg6 arg7 harg7 arg8 harg8 hc x0 x1 x2).1) = k0_pay5 x0 x2 (k0_pay4 x0 x1) (k0_pay3 x0 x1) := by
  rw [View.read_writes_eq_canon _ _ _ (cover3_first c i arg3 harg3 arg4 harg4 arg5 harg5 arg6 harg6 arg7 harg7 arg8 harg8 hc x0 x1 x2)]
  unfold runFirst
  dsimp only
  sl_unfold_words
  rw [View.canon_unit_zero (S := S1x2048x1024) hz3, View.readCov_unit_zero (S := S2048x64) _ hz2, View.readCov_unit_zero (S := S2048x1) _ hz2]
  simp only [View.readAt_eq_ld, harg3.read_unread, harg4.read_unread, harg5.read_unread, View.ld_unit_zero (S := S1x1x64) hz3, View.ld_unit_zero (S := S1x2048x64) hz3, View.ld_unit_zero (S := S1x1024x64) hz3]
/-- The weighted row tile it leaves in the first scratch buffer. -/
theorem outA_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) :
    VA.read (Elt F) (VA.writes (Elt F) VA.junk (runFirst c i arg3 harg3 arg4 harg4 arg5 harg5 arg6 harg6 arg7 harg7 arg8 harg8 hc x0 x1 x2).2.1) = k0_pay4 x0 x1 := by
  rw [View.read_writes_eq_canon _ _ _ (coverA_first c i arg3 harg3 arg4 harg4 arg5 harg5 arg6 harg6 arg7 harg7 arg8 harg8 hc x0 x1 x2)]
  unfold runFirst
  dsimp only
  sl_unfold_words
  rw [View.canon_unit_zero (S := S2048x64) hz2]
  simp only [View.readAt_eq_ld, harg3.read_unread, harg4.read_unread, View.ld_unit_zero (S := S1x1x64) hz3, View.ld_unit_zero (S := S1x2048x64) hz3]
/-- The row tile's weighted squared norms it leaves in the second. -/
theorem outB_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) :
    VB.read (Elt F) (VB.writes (Elt F) VB.junk (runFirst c i arg3 harg3 arg4 harg4 arg5 harg5 arg6 harg6 arg7 harg7 arg8 harg8 hc x0 x1 x2).2.2.1) = k0_pay3 x0 x1 := by
  rw [View.read_writes_eq_canon _ _ _ (coverB_first c i arg3 harg3 arg4 harg4 arg5 harg5 arg6 harg6 arg7 harg7 arg8 harg8 hc x0 x1 x2)]
  unfold runFirst
  dsimp only
  sl_unfold_words
  rw [View.canon_unit_zero (S := S2048x1) hz2]
  simp only [View.readAt_eq_ld, harg3.read_unread, harg4.read_unread, View.ld_unit_zero (S := S1x1x64) hz3, View.ld_unit_zero (S := S1x2048x64) hz3]
/-- At a later-column point the output tile is the body's value of the weights, the column tile and the scratch
    buffers' contents. -/
theorem out3_later (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : ¬firstCol i)
    (x0 : Vec F S1x1x64 .f32) (x1 : Vec F S1x2048x64 .f32) (x2 : Vec F S1x1024x64 .f32) (xa : Vec F S2048x64 .bf16) (xb : Vec F S2048x1 .f32) :
    VO.read (Elt F) (VO.writes (Elt F) VO.junk (runLater c i arg3 harg3 arg4 harg4 arg5 harg5 arg6 harg6 arg7 harg7 arg8 harg8 hc x0 x1 x2 xa xb).1) = k0_pay5 x0 x2 xa xb := by
  rw [View.read_writes_eq_canon _ _ _ (cover3_later c i arg3 harg3 arg4 harg4 arg5 harg5 arg6 harg6 arg7 harg7 arg8 harg8 hc x0 x1 x2 xa xb)]
  unfold runLater
  dsimp only
  sl_unfold_words
  rw [View.canon_unit_zero (S := S1x2048x1024) hz3]
  simp only [View.readAt_eq_ld, harg3.read_unread, harg5.read_unread, harg7.read_unread, harg8.read_unread, View.ld_unit_zero (S := S1x1x64) hz3, View.ld_unit_zero (S := S1x1024x64) hz3, View.ld_unit_zero (S := S2048x64) hz2, View.ld_unit_zero (S := S2048x1) hz2]

/-! ## What the buffers hold point by point -/

/-- The point that started the row tile point `t` is in. -/
def rowStart (t : Fin cfg0.N) : Fin cfg0.N := ⟨t.val - t.val % 4, Nat.lt_of_le_of_lt (Nat.sub_le _ _) t.isLt⟩

theorem rowStart_first (t : Fin cfg0.N) (h : t.val % 4 = 0) : rowStart t = t := Fin.ext (by show t.val - t.val % 4 = t.val; omega)
theorem rowStart_later (t : Fin cfg0.N) (h : ¬t.val % 4 = 0) :
    rowStart ⟨t.val - 1, Nat.lt_of_le_of_lt (Nat.sub_le _ _) t.isLt⟩ = rowStart t :=
  Fin.ext (by show (t.val - 1) - (t.val - 1) % 4 = t.val - t.val % 4; omega)

/-- The weighted row tile in the first scratch buffer after point `t`, -/
def scrA (c : Dev nD) (t : Fin cfg0.N) : Vec F S2048x64 .bf16 := k0_pay4 (iblk m c 0 (rowStart t)) (iblk m c 1 (rowStart t))
/-- its weighted squared norms in the second, -/
def scrB (c : Dev nD) (t : Fin cfg0.N) : Vec F S2048x1 .f32 := k0_pay3 (iblk m c 0 (rowStart t)) (iblk m c 1 (rowStart t))
/-- and the output tile stored at point `t`. -/
def outAt (c : Dev nD) (t : Fin cfg0.N) : Vec F S1x2048x1024 .f32 := k0_pay5 (iblk m c 0 t) (iblk m c 2 t) (scrA m c t) (scrB m c t)

/-- The region's invariant before position `n`: the two scratch buffers, at anything before the first point and at
    what the point before left afterwards. -/
def PhiS (c : Dev nD) : (n : ℕ) → n ≤ cfg0.N → sProp 𝕄
  | 0, _ => iprop((∃ d, owns (c : Thread nD τ) scA fullShare d) ∗ (∃ d, owns (c : Thread nD τ) scB fullShare d))
  | n + 1, hn => iprop(owns (c : Thread nD τ) scA fullShare (scrA m c ⟨n, hn⟩) ∗ owns (c : Thread nD τ) scB fullShare (scrB m c ⟨n, hn⟩))

theorem PhiS_pos (c : Dev nD) (n : ℕ) (h : n ≤ cfg0.N) (hz : n ≠ 0) :
    PhiS m c n h = iprop(owns (c : Thread nD τ) scA fullShare (scrA m c ⟨n - 1, by omega⟩) ∗ owns (c : Thread nD τ) scB fullShare (scrB m c ⟨n - 1, by omega⟩)) := by
  cases n with
  | zero => exact absurd rfl hz
  | succ n => rfl

/-- At any position the invariant holds the two scratch buffers at some contents. -/
theorem PhiS_some (c : Dev nD) (n : ℕ) (h : n ≤ cfg0.N) :
    PhiS m c n h ⊢ iprop((∃ d, owns (c : Thread nD τ) scA fullShare d) ∗ (∃ d, owns (c : Thread nD τ) scB fullShare d)) := by
  cases n with
  | zero => exact Idealize.SL.BI.Entails.refl _
  | succ n =>
    show iprop(owns (c : Thread nD τ) scA fullShare (scrA m c ⟨n, h⟩) ∗ owns (c : Thread nD τ) scB fullShare (scrB m c ⟨n, h⟩)) ⊢ _
    iintro ⟨HA, HB⟩
    isplitl [HA]
    · iexists _; iexact HA
    · iexists _; iexact HB

/-! ## The pipeline's proof data -/

/-- The arrays as the region finds them; after the body at point `t` each input's buffer at its block and the
    output's at `outAt`; the invariant `PhiS`; nothing owed; the weights' array and the output array at the full
    share, the embedding array at one half per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; whether the point is a first column tile decides
    which run applies; the invariant hands over the scratch buffers and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  rw [PhiS_castSucc m c t]
  by_cases h0 : t.val % 4 = 0
  · -- a first column tile: the scratch buffers are recomputed from this point's blocks
    have eA : scrA m c t = k0_pay4 (iblk m c 0 t) (iblk m c 1 t) := by unfold scrA; rw [rowStart_first t h0]
    have eB : scrB m c t = k0_pay3 (iblk m c 0 t) (iblk m c 1 t) := by unfold scrB; rw [rowStart_first t h0]
    have eO : outAt m c t = k0_pay5 (iblk m c 0 t) (iblk m c 2 t) (k0_pay4 (iblk m c 0 t) (iblk m c 1 t)) (k0_pay3 (iblk m c 0 t) (iblk m c 1 t)) := by
      unfold outAt; rw [eA, eB]
    show _ ⊢ wp frame _ Set.univ _ (fun _ => iprop(iprop(owns (c : Thread nD τ) scA fullShare (scrA m c t) ∗ owns (c : Thread nD τ) scB fullShare (scrB m c t)) ∗ _))
    rw [eA, eB, eO]
    iintro ⟨HS, Ho, ⟨%d0, H0⟩, ⟨%d1, H1⟩, ⟨%d2, H2⟩, ⟨%d3, H3⟩⟩
    ihave HS2 := (PhiS_some m c _ _) $$ HS
    icases HS2 with ⟨HA, HB⟩
    iapply ((runFirst c (grid0.coords t) _ _ _ _ _ _ _ _ _ _ _ _ ((firstCol_iff t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [HA]; · iexact HA
    isplitl [HB]; · iexact HB
    iintro ⟨H0, H1, H2, ⟨%e3, H3⟩, ⟨%eA', HA⟩, ⟨%eB', HB⟩⟩
    isplitl [HA HB]
    · isplitl [HA]
      · unfold owns; iexists _; isplitr
        swap; · iexact HA
        ipureintro
        exact (View.read_writes_of_cover _ _ _ _ _ (coverA_first c _ _ _ _ _ _ _ _ _ _ _ _ _ _ _ _ _)).trans (outA_first c _ _ _ _ _ _ _ _ _ _ _ _ _ _ _ _ _)
      · unfold owns; iexists _; isplitr
        swap; · iexact HB
        ipureintro
        exact (View.read_writes_of_cover _ _ _ _ _ (coverB_first c _ _ _ _ _ _ _ _ _ _ _ _ _ _ _ _ _)).trans (outB_first c _ _ _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ _ _ _ (cover3_first c _ _ _ _ _ _ _ _ _ _ _ _ _ _ _ _ _)).trans (out3_first c _ _ _ _ _ _ _ _ _ _ _ _ _ _ _ _ _)
  · -- a later column tile: the scratch buffers are those of the point before, which started the same row tile
    have hz : t.val ≠ 0 := fun h => h0 (by rw [h])
    have eA : scrA m c t = scrA m c ⟨t.val - 1, Nat.lt_of_le_of_lt (Nat.sub_le _ _) t.isLt⟩ := by unfold scrA; rw [rowStart_later t h0]
    have eB : scrB m c t = scrB m c ⟨t.val - 1, Nat.lt_of_le_of_lt (Nat.sub_le _ _) t.isLt⟩ := by unfold scrB; rw [rowStart_later t h0]
    have eO : outAt m c t = k0_pay5 (iblk m c 0 t) (iblk m c 2 t) (scrA m c ⟨t.val - 1, Nat.lt_of_le_of_lt (Nat.sub_le _ _) t.isLt⟩) (scrB m c ⟨t.val - 1, Nat.lt_of_le_of_lt (Nat.sub_le _ _) t.isLt⟩) := by
      unfold outAt; rw [eA, eB]
    show _ ⊢ wp frame _ Set.univ _ (fun _ => iprop(iprop(owns (c : Thread nD τ) scA fullShare (scrA m c t) ∗ owns (c : Thread nD τ) scB fullShare (scrB m c t)) ∗ _))
    rw [eA, eB, eO, PhiS_pos m c _ _ hz]
    iintro ⟨⟨HA, HB⟩, Ho, ⟨%d0, H0⟩, ⟨%d1, H1⟩, ⟨%d2, H2⟩, ⟨%d3, H3⟩⟩
    iapply ((runLater c (grid0.coords t) _ _ _ _ _ _ _ _ _ _ _ _ (fun h => h0 ((firstCol_iff t).mp h)) (iblk m c 0 t) (iblk m c 1 t) (iblk m c 2 t) _ _).2 Set.univ _)
    isplitl [H0]; · iexact H0
    isplitl [H1]; · iexact H1
    isplitl [H2]; · iexact H2
    isplitl [H3]; · iexists _; iexact H3
    isplitl [HA]; · iexact HA
    isplitl [HB]; · iexact HB
    iintro ⟨H0, H1, H2, ⟨%e3, H3⟩, HA, HB⟩
    isplitl [HA HB]
    · isplitl [HA]
      · iexact HA
      · iexact HB
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ _ _ _ (cover3_later c _ _ _ _ _ _ _ _ _ _ _ _ _ _ _ _ _ _ _)).trans (out3_later c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Dist

end
-- ==== Proof.WordLaunch.lean ====
/-
  The launch of the distance kernel's one region: the embedding array is handed to the row-tile window and to the
  column-tile window at one half share each; the two scratch buffers pass through the invariant; every other buffer
  bypasses the region and is read back unchanged. The run ends with each windowed array at what the write-backs
  computed from the proof data give, and the argument arrays as they were.
-/
import proofs.«134669_j14499809591883_2_alg».proof.Proof.WordFrame

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: the pipeline library's own. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The three buffers behind the four windows' arrays, each whole, make the proof data's arrays at entry: the
    embedding array's full share is the row-tile window's left half and the column-tile window's right half. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e0 : (((cfg0.win 0).arr.view.loc (c : Thread nD τ)) ↦[(cfg0.win 0).arr.view.set]{(dats m 0 c).share 0} (dats m 0 c).arrAt 0 0 : sProp 𝕄)
      = (((c : Thread nD τ).loc main_v6) ↦{fullShare} V m c main_v6) := by
    rw [(arr_whole0 0).set_eq_univ]; rfl
  have e1 : (((cfg0.win 1).arr.view.loc (c : Thread nD τ)) ↦[(cfg0.win 1).arr.view.set]{(dats m 0 c).share 1} (dats m 0 c).arrAt 1 0 : sProp 𝕄)
      = (((c : Thread nD τ).loc main_arg1) ↦{fullShare.left} V m c main_arg1) := by
    rw [(arr_whole0 1).set_eq_univ]; rfl
  have e2 : (((cfg0.win 2).arr.view.loc (c : Thread nD τ)) ↦[(cfg0.win 2).arr.view.set]{(dats m 0 c).share 2} (dats m 0 c).arrAt 2 0 : sProp 𝕄)
      = (((c : Thread nD τ).loc main_arg1) ↦{fullShare.right} V m c main_arg1) := by
    rw [(arr_whole0 2).set_eq_univ]; rfl
  have e3 : (((cfg0.win 3).arr.view.loc (c : Thread nD τ)) ↦[(cfg0.win 3).arr.view.set]{(dats m 0 c).share 3} (dats m 0 c).arrAt 3 0 : sProp 𝕄)
      = (((c : Thread nD τ).loc main_v7) ↦{fullShare} V m c main_v7) := by
    rw [(arr_whole0 3).set_eq_univ]; rfl
  have hs : ((((c : Thread nD τ).loc main_arg1) ↦{fullShare} V m c main_arg1) : sProp 𝕄)
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  unfold Pipeline.arrBufs Dat.arrays
  rw [bigSep_eq_bigSepL_of_eq [main_v6, main_arg1, main_v7] (by decide) (by decide), bigSep_W0, e0, e1, e2, e3]
  show iprop((((c : Thread nD τ).loc main_v6) ↦{fullShare} V m c main_v6) ∗ (((c : Thread nD τ).loc main_arg1) ↦{fullShare} V m c main_arg1) ∗ (((c : Thread nD τ).loc main_v7) ↦{fullShare} V m c main_v7)) ⊢ _
  iintro ⟨H6, H1, H7⟩
  ihave H12 := (hs) $$ H1
  icases H12 with ⟨H1a, H1b⟩
  isplitl [H6]; · iexact H6
  isplitl [H1a]; · iexact H1a
  isplitl [H1b]; · iexact H1b
  iexact H7

set_option backward.isDefEq.respectTransparency.types false in
/-- Every weakly fair execution of the program terminates, and every final state has each windowed array at what the
    write-backs give and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by
      rw [scoped_eq, show (dats m 0 c).Φ 0 = iprop((∃ d, owns (c : Thread nD τ) scA fullShare d) ∗ (∃ d, owns (c : Thread nD τ) scB fullShare d)) from rfl]
      iintro ⟨-, H⟩; iexact H)
    (hout := fun c => by
      rw [scoped_eq, show (dats m 0 c).Φ (Fin.last (cfgs 0).N) = PhiS m c (Fin.last cfg0.N).val (Nat.le_of_lt_succ (Fin.last cfg0.N).isLt) from rfl]
      iintro H
      isplitr
      · iempintro
      · iapply (PhiS_some m c _ _); iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => h c)

/-- The frame: the program runs to the end, faults nowhere, and its three argument arrays end as they were — the
    embedding array read back through its row-tile window, the other two among the buffers that bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.Kernel.Dist

end
-- ==== Proof.IdealRegion.lean ====
/-
  The pairwise weighted squared distance kernel, the region's surroundings: the per-batch weights w = max(G,0)^(2t)
  are computed by host operations before the one kernel region, so the region finds the arrays at the contents those
  operations leave; the three argument arrays are written by none of them. Each window's block at a grid point is
  read off those contents. The body branches on the third grid coordinate (the column tile j): at j = 0 it fills the
  two scratch buffers from the row tile, at every j it stores the output tile.
-/
import proofs.«134669_j14499809591883_2_alg».proof.Proof.Gen.KernelIdeal.Launch
import proofs.«134669_j14499809591883_2_alg».proof.Proof.Gen.KernelIdeal.Skeleton
import proofs.«134669_j14499809591883_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers of core `c` as the region finds them: after the host operations that compute the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations writes the eigenvalue array G. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- None writes the embedding array V. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- None writes the exponent t. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the pipeline fetched it there or kept
    it from the point before (the block index has not moved then). One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch: is this the first column tile of its row tile? -/

/-- The condition of the body's conditional, from the grid coordinates: the column-tile coordinate is zero. -/
abbrev firstCol (i : grid0.Coords) : Prop := (Scalar.cmpi .ne (Scalar.extui (Scalar.cmpi .eq (BitVec.ofNat 32 (i 2).val) 0#32)) 0#32) = 1#1
/-- The grid runs the column tiles innermost, four per row tile: the condition holds at the points ≡ 0 (mod 4). -/
theorem firstCol_iff : ∀ t : Fin cfg0.N, firstCol (grid0.coords t) ↔ t.val % 4 = 0 :=
  (by decide +kernel : ∀ t : Fin grid0.N, firstCol (grid0.coords t) ↔ t.val % 4 = 0)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

/-- One staging buffer of the output window, through which its contents are stated. -/
abbrev VO : View sig .tc .vmem S1x2048x1024 .f32 := (Memref.whole cc0_stg3_0 : Memref sig .tc .vmem S1x2048x1024 .f32).view
/-- Each window's current staging memref at point `t`, and its wholeness. -/
abbrev ms0 (t : Fin cfg0.N) : Memref sig .tc .vmem S1x1x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)
/-- The two scratch buffers: the weighted row tile (the matrix product's left operand) and its weighted squared norms. -/
abbrev scA : Memref sig .tc .vmem S2048x64 .bf16 := Memref.whole cc0_scratch0
abbrev scB : Memref sig .tc .vmem S2048x1 .f32 := Memref.whole cc0_scratch1
abbrev VA : View sig .tc .vmem S2048x64 .bf16 := scA.view
abbrev VB : View sig .tc .vmem S2048x1 .f32 := scB.view

/-- The scoped buffers that are no staging buffer are the two scratch buffers, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scA fullShare d) ∗ (∃ d, owns (c : Thread nD τ) scB fullShare d)) := by
  rw [scopedRest0_eq]; simp only [scA, scB, owns_whole]; try rfl

end Cert.KernelIdeal.Dist

end
-- ==== Proof.IdealRunFirst.lean ====
/-
  The body's run at a grid point that is the first column tile of its row tile: it loads the weights and the row
  tile, stores the row tile's weighted squared norms and the weighted row tile into the two scratch buffers, then loads
  the column tile, reads the scratch buffers back and stores the output tile. What each written buffer ends with is
  found by the run as a list of written pieces.
-/
import proofs.«134669_j14499809591883_2_alg».proof.Proof.IdealRegion

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the three input windows' at their contents, the output window's and the two scratch buffers at
    anything — the body at a first-column point runs to the continuation holding the inputs as they were and each of
    the other three with its pieces written. -/
noncomputable def runFirst (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) :
    Σ' (L3 : List (View.Piece (Elt F) S1x2048x1024 .f32)), Σ' (LA : List (View.Piece (Elt F) S2048x64 .bf16)), { LB : List (View.Piece (Elt F) S2048x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LA)
                ∗ (∃ f, arg8.view.loc (c : Thread nD τ) ↦[arg8.view.set]{fullShare} arg8.view.writes (Elt F) f LB)) -∗ K ⟨⟩))
          ⊢ wp frame (wpE (defs₀ (F := F)) Variants.none c none) E (cc0__dist_kernel i arg3 harg3 arg4 harg4 arg5 harg5 arg6 harg6 arg7 harg7 arg8 harg8) K } := by
  refine ⟨?_, ?_, ?_, fun E K => ?run⟩
  case run =>
    simp only [cc0__dist_kernel_eq_skeleton]; unfold cc0__dist_kernel_skel
    unfold owns
    iintro ⟨⟨%f0, %hf0, H0⟩, ⟨%f1, %hf1, H1⟩, ⟨%f2, %hf2, H2⟩, ⟨%d3, %f3, -, H3⟩, ⟨%dA, %fA, -, HA⟩, ⟨%dB, %fB, -, HB⟩, Hk⟩
    obtain rfl := harg3.eq_unread hf0; obtain rfl := harg4.eq_unread hf1; obtain rfl := harg5.eq_unread hf2
    sl_exec (disch := exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HA]; · iexists _; iexact HA
    iexists _; iexact HB

end Cert.KernelIdeal.Dist

end
-- ==== Proof.IdealRunLater.lean ====
/-
  The body's run at a grid point that is a later column tile of its row tile: the scratch buffers are not written;
  the body loads the weights and the column tile, reads the two scratch buffers and stores the output tile.
-/
import proofs.«134669_j14499809591883_2_alg».proof.Proof.IdealRunFirst

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the input windows' and the two scratch buffers at their contents, the output window's at
    anything — the body at a later-column point runs to the continuation holding all of those as they were and the
    output's with its pieces written. -/
noncomputable def runLater (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : ¬firstCol i)
    (x0 : Vec F S1x1x64 .f32) (x1 : Vec F S1x2048x64 .f32) (x2 : Vec F S1x1024x64 .f32) (xa : Vec F S2048x64 .bf16) (xb : Vec F S2048x1 .f32) :
    { L3 : List (View.Piece (Elt F) S1x2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xa ∗ owns (c : Thread nD τ) arg8 fullShare xb
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xa ∗ owns (c : Thread nD τ) arg8 fullShare xb) -∗ K ⟨⟩))
          ⊢ wp frame (wpE (defs₀ (F := F)) Variants.none c none) E (cc0__dist_kernel i arg3 harg3 arg4 harg4 arg5 harg5 arg6 harg6 arg7 harg7 arg8 harg8) K } := by
  refine ⟨?_, fun E K => ?run⟩
  case run =>
    simp only [cc0__dist_kernel_eq_skeleton]; unfold cc0__dist_kernel_skel
    unfold owns
    iintro ⟨⟨%f0, %hf0, H0⟩, H1, ⟨%f2, %hf2, H2⟩, ⟨%d3, %f3, -, H3⟩, ⟨%fA, %hfA, HA⟩, ⟨%fB, %hfB, HB⟩, Hk⟩
    obtain rfl := harg3.eq_unread hf0; obtain rfl := harg5.eq_unread hf2
    obtain rfl := harg7.eq_unread hfA; obtain rfl := harg8.eq_unread hfB
    sl_exec (disch := exact hc)
    sl_step
    iapply Hk
    isplitl [H0]
    · iexists _; isplitr; · ipureintro; exact harg3.read_unread _
      iexact H0
    isplitl [H1]; · iexact H1
    isplitl [H2]
    · iexists _; isplitr; · ipureintro; exact harg5.read_unread _
      iexact H2
    isplitl [H3]; · iexists _; iexact H3
    isplitl [HA]
    · iexists _; isplitr; · ipureintro; exact harg7.read_unread _
      iexact HA
    iexists _; isplitr; · ipureintro; exact harg8.read_unread _
    iexact HB

end Cert.KernelIdeal.Dist

end
-- ==== Proof.IdealFrame.lean ====
/-
  The run of the distance kernel's region and what it leaves. The grid has 4·2·4 = 32 points, the column tile
  innermost: the points t with t mod 4 = 0 are the first column tile of a (batch, row tile) pair, and the row tile's
  block of the embedding array does not move over the following three points. So after every point t the two scratch
  buffers hold the weighted row tile and its weighted squared norms computed from the blocks at the point
  t - t mod 4 that started the row tile, and the output tile stored at t is the body's value of the weights' block,
  the column tile's block and those two. The embedding array is read through two windows (the row tile and the
  column tile): its buffer is held in two half shares, one per window.
-/
import proofs.«134669_j14499809591883_2_alg».proof.Proof.IdealRunLater
import Idealize.ShloMosaic.Lib.Pipeline.Value

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What one run of the body leaves -/

theorem cover3_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) (y : S1x2048x1024.Idx) :
    ∃ pc ∈ (runFirst c i arg3 harg3 arg4 harg4 arg5 harg5 arg6 harg6 arg7 harg7 arg8 harg8 hc x0 x1 x2).1, y ∈ pc.1.set :=
  View.cover_of_tiledL (runFirst c i arg3 harg3 arg4 harg4 arg5 harg5 arg6 harg6 arg7 harg7 arg8 harg8 hc x0 x1 x2).1 S1x2048x1024.size (by sl_kernel_rfl) y
theorem coverA_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) (y : S2048x64.Idx) :
    ∃ pc ∈ (runFirst c i arg3 harg3 arg4 harg4 arg5 harg5 arg6 harg6 arg7 harg7 arg8 harg8 hc x0 x1 x2).2.1, y ∈ pc.1.set :=
  View.cover_of_tiledL (runFirst c i arg3 harg3 arg4 harg4 arg5 harg5 arg6 harg6 arg7 harg7 arg8 harg8 hc x0 x1 x2).2.1 S2048x64.size (by sl_kernel_rfl) y
theorem coverB_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) (y : S2048x1.Idx) :
    ∃ pc ∈ (runFirst c i arg3 harg3 arg4 harg4 arg5 harg5 arg6 harg6 arg7 harg7 arg8 harg8 hc x0 x1 x2).2.2.1, y ∈ pc.1.set :=
  View.cover_of_tiledL (runFirst c i arg3 harg3 arg4 harg4 arg5 harg5 arg6 harg6 arg7 harg7 arg8 harg8 hc x0 x1 x2).2.2.1 S2048x1.size (by sl_kernel_rfl) y
theorem cover3_later (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : ¬firstCol i)
    (x0 : Vec F S1x1x64 .f32) (x1 : Vec F S1x2048x64 .f32) (x2 : Vec F S1x1024x64 .f32) (xa : Vec F S2048x64 .bf16) (xb : Vec F S2048x1 .f32) (y : S1x2048x1024.Idx) :
    ∃ pc ∈ (runLater c i arg3 harg3 arg4 harg4 arg5 harg5 arg6 harg6 arg7 harg7 arg8 harg8 hc x0 x1 x2 xa xb).1, y ∈ pc.1.set :=
  View.cover_of_tiledL (runLater c i arg3 harg3 arg4 harg4 arg5 harg5 arg6 harg6 arg7 harg7 arg8 harg8 hc x0 x1 x2 xa xb).1 S1x2048x1024.size (by sl_kernel_rfl) y

/-- At a first-column point the output tile is the body's value of the weights, the column tile and the two scratch
    values just computed from the weights and the row tile. -/
theorem out3_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) :
    VO.read (Elt F) (VO.writes (Elt F) VO.junk (runFirst c i arg3 harg3 arg4 harg4 arg5 harg5 arg6 harg6 arg7 harg7 arg8 harg8 hc x0 x1 x2).1) = k0_pay5 x0 x2 (k0_pay4 x0 x1) (k0_pay3 x0 x1) := by
  rw [View.read_writes_eq_canon _ _ _ (cover3_first c i arg3 harg3 arg4 harg4 arg5 harg5 arg6 harg6 arg7 harg7 arg8 harg8 hc x0 x1 x2)]
  unfold runFirst
  dsimp only
  sl_unfold_words
  rw [View.canon_unit_zero (S := S1x2048x1024) hz3, View.readCov_unit_zero (S := S2048x64) _ hz2, View.readCov_unit_zero (S := S2048x1) _ hz2]
  simp only [View.readAt_eq_ld, harg3.read_unread, harg4.read_unread, harg5.read_unread, View.ld_unit_zero (S := S1x1x64) hz3, View.ld_unit_zero (S := S1x2048x64) hz3, View.ld_unit_zero (S := S1x1024x64) hz3]
/-- The weighted row tile it leaves in the first scratch buffer. -/
theorem outA_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) :
    VA.read (Elt F) (VA.writes (Elt F) VA.junk (runFirst c i arg3 harg3 arg4 harg4 arg5 harg5 arg6 harg6 arg7 harg7 arg8 harg8 hc x0 x1 x2).2.1) = k0_pay4 x0 x1 := by
  rw [View.read_writes_eq_canon _ _ _ (coverA_first c i arg3 harg3 arg4 harg4 arg5 harg5 arg6 harg6 arg7 harg7 arg8 harg8 hc x0 x1 x2)]
  unfold runFirst
  dsimp only
  sl_unfold_words
  rw [View.canon_unit_zero (S := S2048x64) hz2]
  simp only [View.readAt_eq_ld, harg3.read_unread, harg4.read_unread, View.ld_unit_zero (S := S1x1x64) hz3, View.ld_unit_zero (S := S1x2048x64) hz3]
/-- The row tile's weighted squared norms it leaves in the second. -/
theorem outB_first (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : firstCol i)
    (x0 : Vec F S1x1x64 .f32) (x1 : Vec F S1x2048x64 .f32) (x2 : Vec F S1x1024x64 .f32) :
    VB.read (Elt F) (VB.writes (Elt F) VB.junk (runFirst c i arg3 harg3 arg4 harg4 arg5 harg5 arg6 harg6 arg7 harg7 arg8 harg8 hc x0 x1 x2).2.2.1) = k0_pay3 x0 x1 := by
  rw [View.read_writes_eq_canon _ _ _ (coverB_first c i arg3 harg3 arg4 harg4 arg5 harg5 arg6 harg6 arg7 harg7 arg8 harg8 hc x0 x1 x2)]
  unfold runFirst
  dsimp only
  sl_unfold_words
  rw [View.canon_unit_zero (S := S2048x1) hz2]
  simp only [View.readAt_eq_ld, harg3.read_unread, harg4.read_unread, View.ld_unit_zero (S := S1x1x64) hz3, View.ld_unit_zero (S := S1x2048x64) hz3]
/-- At a later-column point the output tile is the body's value of the weights, the column tile and the scratch
    buffers' contents. -/
theorem out3_later (c : Dev nD) (i : grid0.Coords) (arg3 : Memref sig .tc .vmem S1x1x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1x2048x1024 .f32) (harg6 : arg6.IsWhole) (arg7 : Memref sig .tc .vmem S2048x64 .bf16) (harg7 : arg7.IsWhole) (arg8 : Memref sig .tc .vmem S2048x1 .f32) (harg8 : arg8.IsWhole) (hc : ¬firstCol i)
    (x0 : Vec F S1x1x64 .f32) (x1 : Vec F S1x2048x64 .f32) (x2 : Vec F S1x1024x64 .f32) (xa : Vec F S2048x64 .bf16) (xb : Vec F S2048x1 .f32) :
    VO.read (Elt F) (VO.writes (Elt F) VO.junk (runLater c i arg3 harg3 arg4 harg4 arg5 harg5 arg6 harg6 arg7 harg7 arg8 harg8 hc x0 x1 x2 xa xb).1) = k0_pay5 x0 x2 xa xb := by
  rw [View.read_writes_eq_canon _ _ _ (cover3_later c i arg3 harg3 arg4 harg4 arg5 harg5 arg6 harg6 arg7 harg7 arg8 harg8 hc x0 x1 x2 xa xb)]
  unfold runLater
  dsimp only
  sl_unfold_words
  rw [View.canon_unit_zero (S := S1x2048x1024) hz3]
  simp only [View.readAt_eq_ld, harg3.read_unread, harg5.read_unread, harg7.read_unread, harg8.read_unread, View.ld_unit_zero (S := S1x1x64) hz3, View.ld_unit_zero (S := S1x1024x64) hz3, View.ld_unit_zero (S := S2048x64) hz2, View.ld_unit_zero (S := S2048x1) hz2]

/-! ## What the buffers hold point by point -/

/-- The point that started the row tile point `t` is in. -/
def rowStart (t : Fin cfg0.N) : Fin cfg0.N := ⟨t.val - t.val % 4, Nat.lt_of_le_of_lt (Nat.sub_le _ _) t.isLt⟩

theorem rowStart_first (t : Fin cfg0.N) (h : t.val % 4 = 0) : rowStart t = t := Fin.ext (by show t.val - t.val % 4 = t.val; omega)
theorem rowStart_later (t : Fin cfg0.N) (h : ¬t.val % 4 = 0) :
    rowStart ⟨t.val - 1, Nat.lt_of_le_of_lt (Nat.sub_le _ _) t.isLt⟩ = rowStart t :=
  Fin.ext (by show (t.val - 1) - (t.val - 1) % 4 = t.val - t.val % 4; omega)

/-- The weighted row tile in the first scratch buffer after point `t`, -/
def scrA (c : Dev nD) (t : Fin cfg0.N) : Vec F S2048x64 .bf16 := k0_pay4 (iblk m c 0 (rowStart t)) (iblk m c 1 (rowStart t))
/-- its weighted squared norms in the second, -/
def scrB (c : Dev nD) (t : Fin cfg0.N) : Vec F S2048x1 .f32 := k0_pay3 (iblk m c 0 (rowStart t)) (iblk m c 1 (rowStart t))
/-- and the output tile stored at point `t`. -/
def outAt (c : Dev nD) (t : Fin cfg0.N) : Vec F S1x2048x1024 .f32 := k0_pay5 (iblk m c 0 t) (iblk m c 2 t) (scrA m c t) (scrB m c t)

/-- The region's invariant before position `n`: the two scratch buffers, at anything before the first point and at
    what the point before left afterwards. -/
def PhiS (c : Dev nD) : (n : ℕ) → n ≤ cfg0.N → sProp 𝕄
  | 0, _ => iprop((∃ d, owns (c : Thread nD τ) scA fullShare d) ∗ (∃ d, owns (c : Thread nD τ) scB fullShare d))
  | n + 1, hn => iprop(owns (c : Thread nD τ) scA fullShare (scrA m c ⟨n, hn⟩) ∗ owns (c : Thread nD τ) scB fullShare (scrB m c ⟨n, hn⟩))

theorem PhiS_pos (c : Dev nD) (n : ℕ) (h : n ≤ cfg0.N) (hz : n ≠ 0) :
    PhiS m c n h = iprop(owns (c : Thread nD τ) scA fullShare (scrA m c ⟨n - 1, by omega⟩) ∗ owns (c : Thread nD τ) scB fullShare (scrB m c ⟨n - 1, by omega⟩)) := by
  cases n with
  | zero => exact absurd rfl hz
  | succ n => rfl

/-- At any position the invariant holds the two scratch buffers at some contents. -/
theorem PhiS_some (c : Dev nD) (n : ℕ) (h : n ≤ cfg0.N) :
    PhiS m c n h ⊢ iprop((∃ d, owns (c : Thread nD τ) scA fullShare d) ∗ (∃ d, owns (c : Thread nD τ) scB fullShare d)) := by
  cases n with
  | zero => exact Idealize.SL.BI.Entails.refl _
  | succ n =>
    show iprop(owns (c : Thread nD τ) scA fullShare (scrA m c ⟨n, h⟩) ∗ owns (c : Thread nD τ) scB fullShare (scrB m c ⟨n, h⟩)) ⊢ _
    iintro ⟨HA, HB⟩
    isplitl [HA]
    · iexists _; iexact HA
    · iexists _; iexact HB

/-! ## The pipeline's proof data -/

/-- The arrays as the region finds them; after the body at point `t` each input's buffer at its block and the
    output's at `outAt`; the invariant `PhiS`; nothing owed; the weights' array and the output array at the full
    share, the embedding array at one half per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; whether the point is a first column tile decides
    which run applies; the invariant hands over the scratch buffers and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  rw [PhiS_castSucc m c t]
  by_cases h0 : t.val % 4 = 0
  · -- a first column tile: the scratch buffers are recomputed from this point's blocks
    have eA : scrA m c t = k0_pay4 (iblk m c 0 t) (iblk m c 1 t) := by unfold scrA; rw [rowStart_first t h0]
    have eB : scrB m c t = k0_pay3 (iblk m c 0 t) (iblk m c 1 t) := by unfold scrB; rw [rowStart_first t h0]
    have eO : outAt m c t = k0_pay5 (iblk m c 0 t) (iblk m c 2 t) (k0_pay4 (iblk m c 0 t) (iblk m c 1 t)) (k0_pay3 (iblk m c 0 t) (iblk m c 1 t)) := by
      unfold outAt; rw [eA, eB]
    show _ ⊢ wp frame _ Set.univ _ (fun _ => iprop(iprop(owns (c : Thread nD τ) scA fullShare (scrA m c t) ∗ owns (c : Thread nD τ) scB fullShare (scrB m c t)) ∗ _))
    rw [eA, eB, eO]
    iintro ⟨HS, Ho, ⟨%d0, H0⟩, ⟨%d1, H1⟩, ⟨%d2, H2⟩, ⟨%d3, H3⟩⟩
    ihave HS2 := (PhiS_some m c _ _) $$ HS
    icases HS2 with ⟨HA, HB⟩
    iapply ((runFirst c (grid0.coords t) _ _ _ _ _ _ _ _ _ _ _ _ ((firstCol_iff t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [HA]; · iexact HA
    isplitl [HB]; · iexact HB
    iintro ⟨H0, H1, H2, ⟨%e3, H3⟩, ⟨%eA', HA⟩, ⟨%eB', HB⟩⟩
    isplitl [HA HB]
    · isplitl [HA]
      · unfold owns; iexists _; isplitr
        swap; · iexact HA
        ipureintro
        exact (View.read_writes_of_cover _ _ _ _ _ (coverA_first c _ _ _ _ _ _ _ _ _ _ _ _ _ _ _ _ _)).trans (outA_first c _ _ _ _ _ _ _ _ _ _ _ _ _ _ _ _ _)
      · unfold owns; iexists _; isplitr
        swap; · iexact HB
        ipureintro
        exact (View.read_writes_of_cover _ _ _ _ _ (coverB_first c _ _ _ _ _ _ _ _ _ _ _ _ _ _ _ _ _)).trans (outB_first c _ _ _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ _ _ _ (cover3_first c _ _ _ _ _ _ _ _ _ _ _ _ _ _ _ _ _)).trans (out3_first c _ _ _ _ _ _ _ _ _ _ _ _ _ _ _ _ _)
  · -- a later column tile: the scratch buffers are those of the point before, which started the same row tile
    have hz : t.val ≠ 0 := fun h => h0 (by rw [h])
    have eA : scrA m c t = scrA m c ⟨t.val - 1, Nat.lt_of_le_of_lt (Nat.sub_le _ _) t.isLt⟩ := by unfold scrA; rw [rowStart_later t h0]
    have eB : scrB m c t = scrB m c ⟨t.val - 1, Nat.lt_of_le_of_lt (Nat.sub_le _ _) t.isLt⟩ := by unfold scrB; rw [rowStart_later t h0]
    have eO : outAt m c t = k0_pay5 (iblk m c 0 t) (iblk m c 2 t) (scrA m c ⟨t.val - 1, Nat.lt_of_le_of_lt (Nat.sub_le _ _) t.isLt⟩) (scrB m c ⟨t.val - 1, Nat.lt_of_le_of_lt (Nat.sub_le _ _) t.isLt⟩) := by
      unfold outAt; rw [eA, eB]
    show _ ⊢ wp frame _ Set.univ _ (fun _ => iprop(iprop(owns (c : Thread nD τ) scA fullShare (scrA m c t) ∗ owns (c : Thread nD τ) scB fullShare (scrB m c t)) ∗ _))
    rw [eA, eB, eO, PhiS_pos m c _ _ hz]
    iintro ⟨⟨HA, HB⟩, Ho, ⟨%d0, H0⟩, ⟨%d1, H1⟩, ⟨%d2, H2⟩, ⟨%d3, H3⟩⟩
    iapply ((runLater c (grid0.coords t) _ _ _ _ _ _ _ _ _ _ _ _ (fun h => h0 ((firstCol_iff t).mp h)) (iblk m c 0 t) (iblk m c 1 t) (iblk m c 2 t) _ _).2 Set.univ _)
    isplitl [H0]; · iexact H0
    isplitl [H1]; · iexact H1
    isplitl [H2]; · iexact H2
    isplitl [H3]; · iexists _; iexact H3
    isplitl [HA]; · iexact HA
    isplitl [HB]; · iexact HB
    iintro ⟨H0, H1, H2, ⟨%e3, H3⟩, HA, HB⟩
    isplitl [HA HB]
    · isplitl [HA]
      · iexact HA
      · iexact HB
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ _ _ _ (cover3_later c _ _ _ _ _ _ _ _ _ _ _ _ _ _ _ _ _ _ _)).trans (out3_later c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Dist

end
-- ==== Proof.IdealLaunch.lean ====
/-
  The launch of the distance kernel's one region: the embedding array is handed to the row-tile window and to the
  column-tile window at one half share each; the two scratch buffers pass through the invariant; every other buffer
  bypasses the region and is read back unchanged. The run ends with each windowed array at what the write-backs
  computed from the proof data give, and the argument arrays as they were.
-/
import proofs.«134669_j14499809591883_2_alg».proof.Proof.IdealFrame

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: the pipeline library's own. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The three buffers behind the four windows' arrays, each whole, make the proof data's arrays at entry: the
    embedding array's full share is the row-tile window's left half and the column-tile window's right half. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e0 : (((cfg0.win 0).arr.view.loc (c : Thread nD τ)) ↦[(cfg0.win 0).arr.view.set]{(dats m 0 c).share 0} (dats m 0 c).arrAt 0 0 : sProp 𝕄)
      = (((c : Thread nD τ).loc main_v6) ↦{fullShare} V m c main_v6) := by
    rw [(arr_whole0 0).set_eq_univ]; rfl
  have e1 : (((cfg0.win 1).arr.view.loc (c : Thread nD τ)) ↦[(cfg0.win 1).arr.view.set]{(dats m 0 c).share 1} (dats m 0 c).arrAt 1 0 : sProp 𝕄)
      = (((c : Thread nD τ).loc main_arg1) ↦{fullShare.left} V m c main_arg1) := by
    rw [(arr_whole0 1).set_eq_univ]; rfl
  have e2 : (((cfg0.win 2).arr.view.loc (c : Thread nD τ)) ↦[(cfg0.win 2).arr.view.set]{(dats m 0 c).share 2} (dats m 0 c).arrAt 2 0 : sProp 𝕄)
      = (((c : Thread nD τ).loc main_arg1) ↦{fullShare.right} V m c main_arg1) := by
    rw [(arr_whole0 2).set_eq_univ]; rfl
  have e3 : (((cfg0.win 3).arr.view.loc (c : Thread nD τ)) ↦[(cfg0.win 3).arr.view.set]{(dats m 0 c).share 3} (dats m 0 c).arrAt 3 0 : sProp 𝕄)
      = (((c : Thread nD τ).loc main_v7) ↦{fullShare} V m c main_v7) := by
    rw [(arr_whole0 3).set_eq_univ]; rfl
  have hs : ((((c : Thread nD τ).loc main_arg1) ↦{fullShare} V m c main_arg1) : sProp 𝕄)
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  unfold Pipeline.arrBufs Dat.arrays
  rw [bigSep_eq_bigSepL_of_eq [main_v6, main_arg1, main_v7] (by decide) (by decide), bigSep_W0, e0, e1, e2, e3]
  show iprop((((c : Thread nD τ).loc main_v6) ↦{fullShare} V m c main_v6) ∗ (((c : Thread nD τ).loc main_arg1) ↦{fullShare} V m c main_arg1) ∗ (((c : Thread nD τ).loc main_v7) ↦{fullShare} V m c main_v7)) ⊢ _
  iintro ⟨H6, H1, H7⟩
  ihave H12 := (hs) $$ H1
  icases H12 with ⟨H1a, H1b⟩
  isplitl [H6]; · iexact H6
  isplitl [H1a]; · iexact H1a
  isplitl [H1b]; · iexact H1b
  iexact H7

set_option backward.isDefEq.respectTransparency.types false in
/-- Every weakly fair execution of the program terminates, and every final state has each windowed array at what the
    write-backs give and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by
      rw [scoped_eq, show (dats m 0 c).Φ 0 = iprop((∃ d, owns (c : Thread nD τ) scA fullShare d) ∗ (∃ d, owns (c : Thread nD τ) scB fullShare d)) from rfl]
      iintro ⟨-, H⟩; iexact H)
    (hout := fun c => by
      rw [scoped_eq, show (dats m 0 c).Φ (Fin.last (cfgs 0).N) = PhiS m c (Fin.last cfg0.N).val (Nat.le_of_lt_succ (Fin.last cfg0.N).isLt) from rfl]
      iintro H
      isplitr
      · iempintro
      · iapply (PhiS_some m c _ _); iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => h c)

/-- The frame: the program runs to the end, faults nowhere, and its three argument arrays end as they were — the
    embedding array read back through its row-tile window, the other two among the buffers that bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.KernelIdeal.Dist

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.TileValue.lean ====
/-
  One tile of the distance kernel, read at an index. With w the weights' block [1,1,64], x_r the row tile [1,2048,64]
  and x_c the column tile [1,1024,64]:

  * the weighted row tile is (x_r · w)[p,k] = x_r[p,k] · w[k] (kept in the first scratch buffer; the change of float
    format on the way is the identity on the extended reals);
  * the row tile's weighted squared norms are Σ_k (x_r[p,k] · w[k]) · x_r[p,k] (kept in the second, as a column);
  * the output tile at (p,q) is (norm_r[p] + Σ_k (x_c[q,k] · w[k]) · x_c[q,k]) − 2 · Σ_k a[p,k] · x_c[q,k], where a is the
    first scratch buffer's contents: a product of the [2048,64] tile with the TRANSPOSE of the [1024,64] tile, both
    contracted along their last axis, accumulated into zero.
-/
import proofs.«134669_j14499809591883_2_alg».proof.Proof.Gen.KernelIdeal.Skeleton
import proofs.«134669_j14499809591883_2_alg».proof.Proof.LibKeepdims
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The weights' block recast as a row [1,64] reads entry k of the block. -/
theorem wrow_apply (w : Vec Ideal S1x1x64 .f32) (k : Fin 64) :
    shapeCast S1x64 (shapeCast S64 w shapeCasts_S1x1x64_S64) shapeCasts_S64_S1x64 (ix2 (0 : Fin 1) k) = w (ix3 (0 : Fin 1) (0 : Fin 1) k) := by
  refine (shapeCast_a_1a_apply _ _ (0 : Fin 1) k).trans ?_
  refine shapeCast_apply w _ (ix1 k) (ix3 (0 : Fin 1) (0 : Fin 1) k) ?_
  rw [Shape.rowMajor_val_three, Shape.rowMajor_val_one]
  show (0 * 1 + 0) * 64 + k.val = k.val
  omega

/-- The weighted row tile at (p,k). -/
theorem pay2_at (w : Vec Ideal S1x1x64 .f32) (xr : Vec Ideal S1x2048x64 .f32) (p : Fin 2048) (k : Fin 64) :
    k0_pay2 w xr (ix2 p k) = xr (ix3 (0 : Fin 1) p k) * w (ix3 (0 : Fin 1) (0 : Fin 1) k) := by
  unfold k0_pay2 k0_pay1
  refine congrArg₂ (· * ·) ?_ ?_
  · exact shapeCast_1ab_ab_apply xr _ p k
  · exact (broadcastTo_1b_ab_apply _ _ p k).trans (wrow_apply w k)

/-- The first scratch buffer's contents at (p,k): the weighted row tile (the format change is the identity). -/
theorem pay4_at (w : Vec Ideal S1x1x64 .f32) (xr : Vec Ideal S1x2048x64 .f32) (p : Fin 2048) (k : Fin 64) :
    k0_pay4 w xr (ix2 p k) = xr (ix3 (0 : Fin 1) p k) * w (ix3 (0 : Fin 1) (0 : Fin 1) k) := by
  unfold k0_pay4
  rw [shapeCast_self]
  exact pay2_at w xr p k

/-- The second scratch buffer's contents at (p,0): the row's weighted squared norm. -/
theorem pay3_at (w : Vec Ideal S1x1x64 .f32) (xr : Vec Ideal S1x2048x64 .f32) (p : Fin 2048) :
    k0_pay3 w xr (ix2 p (0 : Fin 1)) = ∑ k : Fin 64, xr (ix3 (0 : Fin 1) p k) * w (ix3 (0 : Fin 1) (0 : Fin 1) k) * xr (ix3 (0 : Fin 1) p k) := by
  unfold k0_pay3
  rw [shapeCast_self]
  refine (shapeCast_a_a1_apply _ _ p (0 : Fin 1)).trans ?_
  refine (multiReduction_add_rows_apply _ 0x00000000#32 reduces_S2048x64_S2048 (.inl rfl) rfl p).trans ?_
  refine Finset.sum_congr rfl fun k _ => ?_
  refine congrArg₂ (· * ·) (pay2_at w xr p k) ?_
  unfold k0_pay1
  exact shapeCast_1ab_ab_apply xr _ p k

/-- The product's operand indices at output index i and contraction index q: the left operand is read at row i 0, the
    right operand at row i 1, both at column q. -/
theorem lhs_row (i : S2048x1024.Idx) (q : dot_S2048x64_S1024x64_S2048x1024_1_1_0_0_n_n.contr.Idx) : (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
theorem lhs_col (i : S2048x1024.Idx) (q : dot_S2048x64_S1024x64_S2048x1024_1_1_0_0_n_n.contr.Idx) : (dot_S2048x64_S1024x64_S2048x1024_1_1_0_0_n_n.lhsIdx i q 1).val = (q ⟨0, by decide⟩).val :=
  dot_S2048x64_S1024x64_S2048x1024_1_1_0_0_n_n.lhsIdx_val_of_single rfl i q
theorem rhs_row (i : S2048x1024.Idx) (q : dot_S2048x64_S1024x64_S2048x1024_1_1_0_0_n_n.contr.Idx) : (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
theorem rhs_col (i : S2048x1024.Idx) (q : dot_S2048x64_S1024x64_S2048x1024_1_1_0_0_n_n.contr.Idx) : (dot_S2048x64_S1024x64_S2048x1024_1_1_0_0_n_n.rhsIdx i q 1).val = (q ⟨0, by decide⟩).val :=
  dot_S2048x64_S1024x64_S2048x1024_1_1_0_0_n_n.rhsIdx_val_of_single rfl i q

/-- The kernel's matrix product: both tiles contracted along their last axis, into the zero accumulator. -/
theorem matmul_nt_at (a : FVec Ideal S2048x64 .bf16) (b : FVec Ideal S1024x64 .bf16) (p : Fin 2048) (q : Fin 1024) :
    matmul dot_S2048x64_S1024x64_S2048x1024_1_1_0_0_n_n none a b (constant (F := Ideal) S2048x1024 .f32 0x00000000#32) (ix2 p q)
      = ∑ k : Fin 64, a (ix2 p k) * b (ix2 q k) := by
  simp only [matmul]
  rw [Ideal.matmul_constant_zero_apply, ← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 p q) ((contrEquiv1 dot_S2048x64_S1024x64_S2048x1024_1_1_0_0_n_n 64 rfl rfl).symm k) = ix2 p k := funext fun ax => Fin.ext (by
    match ax with
    | ⟨0, _⟩ => exact lhs_row _ _
    | ⟨1, _⟩ => exact (lhs_col _ _).trans hk)
  have er : dot_S2048x64_S1024x64_S2048x1024_1_1_0_0_n_n.rhsIdx (ix2 p q) ((contrEquiv1 dot_S2048x64_S1024x64_S2048x1024_1_1_0_0_n_n 64 rfl rfl).symm k) = ix2 q k := funext fun ax => Fin.ext (by
    match ax with
    | ⟨0, _⟩ => exact rhs_row _ _
    | ⟨1, _⟩ => exact (rhs_col _ _).trans hk)
  rw [el, er]

/-- The output tile at (0,p,q), from the weights' block, the column tile and the two scratch buffers' contents. -/
theorem pay5_at (w : Vec Ideal S1x1x64 .f32) (xc : Vec Ideal S1x1024x64 .f32) (a : Vec Ideal S2048x64 .bf16) (s : Vec Ideal S2048x1 .f32)
    (p : Fin 2048) (q : Fin 1024) :
    k0_pay5 w xc a s (ix3 (0 : Fin 1) p q)
      = (s (ix2 p (0 : Fin 1)) + ∑ k : Fin 64, xc (ix3 (0 : Fin 1) q k) * w (ix3 (0 : Fin 1) (0 : Fin 1) k) * xc (ix3 (0 : Fin 1) q k))
        - Ideal.ofBits .f32 0x40000000#32 * ∑ k : Fin 64, a (ix2 p k) * xc (ix3 (0 : Fin 1) q k) := by
  unfold k0_pay5
  refine (shapeCast_ab_1ab_apply _ _ (0 : Fin 1) p q).trans ?_
  refine congrArg₂ (· - ·) (congrArg₂ (· + ·) ?_ ?_) (congrArg₂ (· * ·) rfl ?_)
  · exact broadcastTo_a1_ab_apply s _ p q
  · refine (broadcastTo_1b_ab_apply _ _ p q).trans ?_
    refine (shapeCast_a_1a_apply _ _ (0 : Fin 1) q).trans ?_
    refine (multiReduction_add_rows_apply _ 0x00000000#32 reduces_S1024x64_S1024 (.inl rfl) rfl q).trans ?_
    refine Finset.sum_congr rfl fun k _ => ?_
    refine congrArg₂ (· * ·) (congrArg₂ (· * ·) ?_ ?_) ?_
    · exact shapeCast_1ab_ab_apply xc _ q k
    · exact (broadcastTo_1b_ab_apply _ _ q k).trans (wrow_apply w k)
    · exact shapeCast_1ab_ab_apply xc _ q k
  · refine (matmul_nt_at _ _ p q).trans ?_
    refine Finset.sum_congr rfl fun k _ => ?_
    refine congrArg₂ (· * ·) rfl ?_
    exact shapeCast_1ab_ab_apply xc _ q k

end Cert.KernelIdeal.Tile

end
-- ==== Proof.DistSpec.lean ====
/-
  The weighted pairwise squared distance, index by index. For a batch b with weights w[b, ·] and embedding rows
  x[b, r, ·] the result at (b, r, s) is

      ‖x_r‖²_w + ‖x_s‖²_w − 2 · ⟨x_r, x_s⟩_w,

  where ‖x_r‖²_w = Σ_k (x[b,r,k] · w[b,k]) · x[b,r,k] and ⟨x_r, x_s⟩_w = Σ_k (x[b,r,k] · w[b,k]) · x[b,s,k], each product
  taken in exactly this grouping on the extended reals, so that both programs compute it term for term and no
  algebraic law is needed to join them.
-/
import Idealize.ShloMosaic.PureOps.Ideal
import Idealize.ShloMosaic.Lib.ValueIdx

noncomputable section

open scoped BigOperators

namespace Cert.Dist

open Idealize.ShloMosaic Idealize.ShloMosaic.ValueIdx

/-- The weights, the embedding and the result as index sets. -/
abbrev SW : Shape := ⟨3, ![4, 1, 64]⟩
abbrev SX : Shape := ⟨3, ![4, 4096, 64]⟩
abbrev SY : Shape := ⟨3, ![4, 4096, 4096]⟩

/-- The weighted inner product of rows `r` and `s` of batch `b`. -/
def wdot (w : SW.Idx → EReal) (x : SX.Idx → EReal) (b : Fin 4) (r s : Fin 4096) : EReal :=
  ∑ k : Fin 64, x (ix3 b r k) * w (ix3 b (0 : Fin 1) k) * x (ix3 b s k)

/-- The weighted squared distance between rows `r` and `s` of batch `b`. -/
def distAt (w : SW.Idx → EReal) (x : SX.Idx → EReal) (b : Fin 4) (r s : Fin 4096) : EReal :=
  (wdot w x b r r + wdot w x b s s) - Ideal.ofBits .f32 0x40000000#32 * wdot w x b r s

/-- The whole result array. -/
def dist (w : SW.Idx → EReal) (x : SX.Idx → EReal) : SY.Idx → EReal := fun i => distAt w x (i 0) (i 1) (i 2)

end Cert.Dist

end
-- ==== Proof.RefDist.lean ====
/-
  The reference computes the weighted pairwise squared distance: its weights are the first nine host operations'
  value; the row norms are a sum over the last axis of (x · w) · x from the initial value zero, broadcast along the
  rows and along the columns; the cross term is a batched product of x · w with x contracting the last axis.
-/
import proofs.«134669_j14499809591883_2_alg».proof.Proof.Gen.ReferenceIdeal.Read
import proofs.«134669_j14499809591883_2_alg».proof.Proof.DistSpec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The index a row norm's summand is read at, through the two broadcasts along the rows. -/
theorem idx_row (i : S4x4096x4096.Idx) (k : Fin 64) :
    idx_main_v10 (idx_main_v12 (idx_main_v14 i)) k = ix3 (n0 := 4) (n1 := 4096) (n2 := 64) (i 0) (i 1) k :=
  funext fun a => Fin.ext (by match a with | ⟨0, _⟩ => rfl | ⟨1, _⟩ => rfl | ⟨2, _⟩ => rfl)
/-- The same through the two broadcasts along the columns. -/
theorem idx_col (i : S4x4096x4096.Idx) (k : Fin 64) :
    idx_main_v10 (idx_main_v13 (idx_main_v15 i)) k = ix3 (n0 := 4) (n1 := 4096) (n2 := 64) (i 0) (i 2) k :=
  funext fun a => Fin.ext (by match a with | ⟨0, _⟩ => rfl | ⟨1, _⟩ => rfl | ⟨2, _⟩ => rfl)
/-- The cross term's left and right operand indices. -/
theorem idx_l (i : S4x4096x4096.Idx) (k : Fin 64) :
    lidx_main_v11 i k = ix3 (n0 := 4) (n1 := 4096) (n2 := 64) (i 0) (i 1) k :=
  funext fun a => Fin.ext (by match a with | ⟨0, _⟩ => rfl | ⟨1, _⟩ => rfl | ⟨2, _⟩ => rfl)
theorem idx_r (i : S4x4096x4096.Idx) (k : Fin 64) :
    ridx_main_v11 i k = ix3 (n0 := 4) (n1 := 4096) (n2 := 64) (i 0) (i 2) k :=
  funext fun a => Fin.ext (by match a with | ⟨0, _⟩ => rfl | ⟨1, _⟩ => rfl | ⟨2, _⟩ => rfl)
/-- The weights broadcast along the rows are read at row 0 of their batch. -/
theorem idx_w (b : Fin 4) (r : Fin 4096) (k : Fin 64) :
    idx_main_v7 (ix3 (n0 := 4) (n1 := 4096) (n2 := 64) b r k) = ix3 (n0 := 4) (n1 := 1) (n2 := 64) b (0 : Fin 1) k :=
  funext fun a => Fin.ext (by match a with | ⟨0, _⟩ => rfl | ⟨1, _⟩ => rfl | ⟨2, _⟩ => rfl)

/-- The weighted embedding at an index. -/
theorem v8_at (g : (⟨S4x64, .f32⟩ : BufTy).Contents (Elt Ideal)) (x : (⟨S4x4096x64, .f32⟩ : BufTy).Contents (Elt Ideal)) (tt : (⟨S1, .f32⟩ : BufTy).Contents (Elt Ideal))
    (b : Fin 4) (r : Fin 4096) (k : Fin 64) :
    val_main_v8 (F := Ideal) g x tt (ix3 (n0 := 4) (n1 := 4096) (n2 := 64) b r k)
      = x (ix3 (n0 := 4) (n1 := 4096) (n2 := 64) b r k) * val_main_v6 (F := Ideal) g tt (ix3 (n0 := 4) (n1 := 1) (n2 := 64) b (0 : Fin 1) k) := by
  rw [val_main_v8_apply, val_main_v7_apply, idx_w]; rfl

/-- The reference's result is the distance array of its own weights and the embedding. -/
theorem ref_eq (g : (⟨S4x64, .f32⟩ : BufTy).Contents (Elt Ideal)) (x : (⟨S4x4096x64, .f32⟩ : BufTy).Contents (Elt Ideal)) (tt : (⟨S1, .f32⟩ : BufTy).Contents (Elt Ideal)) :
    val_main_v19 (F := Ideal) g x tt = Cert.Dist.dist (val_main_v6 (F := Ideal) g tt) x := by
  funext i
  rw [val_main_v19_apply, val_main_v16_apply, val_main_v14_apply, val_main_v12_apply, val_main_v10_apply,
    val_main_v15_apply, val_main_v13_apply, val_main_v10_apply, val_main_v18_apply, val_main_v17_apply, val_main_cst_2_apply,
    val_main_v11_apply, val_main_cst_1_apply]
  simp only [idx_row, idx_col, idx_l, idx_r, val_main_v9_apply, Ideal.subf_def, Ideal.addf_def, Ideal.mulf_def, Ideal.ofBits_def,
    Ideal.ofBits_zero_f32, zero_add]
  unfold Cert.Dist.dist Cert.Dist.distAt Cert.Dist.wdot
  refine congrArg₂ (· - ·) (congrArg₂ (· + ·) (Finset.sum_congr rfl fun k _ => ?_) (Finset.sum_congr rfl fun k _ => ?_))
    (congrArg _ (Finset.sum_congr rfl fun k _ => ?_))
  · exact congrArg (· * x _) (v8_at g x tt (i 0) (i 1) k)
  · exact congrArg (· * x _) (v8_at g x tt (i 0) (i 2) k)
  · exact congrArg (· * x _) (v8_at g x tt (i 0) (i 1) k)

end Cert.ReferenceIdeal.RefValue

end
-- ==== Proof.WholeArray.lean ====
/-
  From the tiles to the whole result. Grid point t = 8·b + 4·i + j (batch b, row tile i, column tile j) stores, into
  block (b, i, j) of the result, the tile whose entry (p, q) is the weighted squared distance between rows
  2048·i + p and 1024·j + q of batch b: the weights' block is row b of the weights, the row tile is read (at the
  point 8·b + 4·i that started it) from rows 2048·i … of batch b, the column tile from rows 1024·j … of batch b. The 32
  blocks tile the result, so it ends as the distance array of the weights the host operations computed and the
  embedding. The weights are the first nine host operations' value, the same term the reference computes.
-/
import proofs.«134669_j14499809591883_2_alg».proof.Proof.IdealLaunch
import proofs.«134669_j14499809591883_2_alg».proof.Proof.TileValue
import proofs.«134669_j14499809591883_2_alg».proof.Proof.RefDist
import Idealize.ShloMosaic.Lib.StableHlo.Run

set_option maxRecDepth 16384

noncomputable section

open scoped BigOperators

namespace Cert.KernelIdeal.Whole

open Cert.KernelIdeal Cert.KernelIdeal.Gen Cert.KernelIdeal.Dist
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hN : cfg0.N = 32 := N_0

/-- The batch of grid point t, -/
def bOf (t : Fin cfg0.N) : Fin 4 := ⟨t.val / 8, by have h : t.val < 32 := lt_of_lt_of_eq t.isLt hN; omega⟩
/-- the row of the embedding its row tile's row p is, -/
def rowOf (t : Fin cfg0.N) (p : Fin 2048) : Fin 4096 := ⟨t.val / 4 % 2 * 2048 + p.val, by have := p.isLt; omega⟩
/-- and the row its column tile's row q is. -/
def colOf (t : Fin cfg0.N) (q : Fin 1024) : Fin 4096 := ⟨t.val % 4 * 1024 + q.val, by have := q.isLt; omega⟩

theorem bOf_rowStart (t : Fin cfg0.N) : bOf (rowStart t) = bOf t :=
  Fin.ext (by show (t.val - t.val % 4) / 8 = t.val / 8; omega)
theorem rowOf_rowStart (t : Fin cfg0.N) (p : Fin 2048) : rowOf (rowStart t) p = rowOf t p :=
  Fin.ext (by show (t.val - t.val % 4) / 4 % 2 * 2048 + p.val = t.val / 4 % 2 * 2048 + p.val; omega)

/-- The printed index maps in closed form, decided over the 32 grid points. -/
theorem idx_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = t.val / 4 % 2 ∧ win0_1.index t (2 : Fin 3) = 0)
    ∧ (win0_2.index t (0 : Fin 3) = t.val / 8 ∧ win0_2.index t (1 : Fin 3) = t.val % 4 ∧ win0_2.index t (2 : Fin 3) = 0)
    ∧ (win0_3.index t (0 : Fin 3) = t.val / 8 ∧ win0_3.index t (1 : Fin 3) = t.val / 4 % 2 ∧ win0_3.index t (2 : Fin 3) = t.val % 4) :=
  (by decide +kernel : ∀ t : Fin grid0.N, _)

/-- The weights' block at point t is row `bOf t` of the weights. -/
theorem iblk0_at (c : Dev nD) (t : Fin cfg0.N) (k : Fin 64) :
    iblk m c 0 t (ix3 (0 : Fin 1) (0 : Fin 1) k) = V m c main_v6 (ix3 (n0 := 4) (n1 := 1) (n2 := 64) (bOf t) (0 : Fin 1) k) := by
  obtain ⟨⟨e0, e1, e2⟩, -, -, -⟩ := idx_facts t
  show V m c main_v6 (((cfg0.win 0).blk t).view.emb (ix3 (0 : Fin 1) (0 : Fin 1) k)) = _
  refine congrArg (V m c main_v6) (funext fun a => Fin.ext ?_)
  match a with
  | ⟨0, _⟩ => show win0_0.index t (0 : Fin 3) * 1 + 1 * 0 = t.val / 8; omega
  | ⟨1, _⟩ => show win0_0.index t (1 : Fin 3) * 1 + 1 * 0 = 0; omega
  | ⟨2, _⟩ => show win0_0.index t (2 : Fin 3) * 64 + 1 * k.val = k.val; omega

/-- The row tile at point t is rows `rowOf t ·` of batch `bOf t` of the embedding. -/
theorem iblk1_at (c : Dev nD) (t : Fin cfg0.N) (p : Fin 2048) (k : Fin 64) :
    iblk m c 1 t (ix3 (0 : Fin 1) p k) = V m c main_arg1 (ix3 (n0 := 4) (n1 := 4096) (n2 := 64) (bOf t) (rowOf t p) k) := by
  obtain ⟨-, ⟨e0, e1, e2⟩, -, -⟩ := idx_facts t
  show V m c main_arg1 (((cfg0.win 1).blk t).view.emb (ix3 (0 : Fin 1) p k)) = _
  refine congrArg (V m c main_arg1) (funext fun a => Fin.ext ?_)
  match a with
  | ⟨0, _⟩ => show win0_1.index t (0 : Fin 3) * 1 + 1 * 0 = t.val / 8; omega
  | ⟨1, _⟩ => show win0_1.index t (1 : Fin 3) * 2048 + 1 * p.val = t.val / 4 % 2 * 2048 + p.val; omega
  | ⟨2, _⟩ => show win0_1.index t (2 : Fin 3) * 64 + 1 * k.val = k.val; omega

/-- The column tile at point t is rows `colOf t ·` of batch `bOf t` of the embedding. -/
theorem iblk2_at (c : Dev nD) (t : Fin cfg0.N) (q : Fin 1024) (k : Fin 64) :
    iblk m c 2 t (ix3 (0 : Fin 1) q k) = V m c main_arg1 (ix3 (n0 := 4) (n1 := 4096) (n2 := 64) (bOf t) (colOf t q) k) := by
  obtain ⟨-, -, ⟨e0, e1, e2⟩, -⟩ := idx_facts t
  show V m c main_arg1 (((cfg0.win 2).blk t).view.emb (ix3 (0 : Fin 1) q k)) = _
  refine congrArg (V m c main_arg1) (funext fun a => Fin.ext ?_)
  match a with
  | ⟨0, _⟩ => show win0_2.index t (0 : Fin 3) * 1 + 1 * 0 = t.val / 8; omega
  | ⟨1, _⟩ => show win0_2.index t (1 : Fin 3) * 1024 + 1 * q.val = t.val % 4 * 1024 + q.val; omega
  | ⟨2, _⟩ => show win0_2.index t (2 : Fin 3) * 64 + 1 * k.val = k.val; omega

/-- The tile stored at point t, at (u, p, q): the weighted squared distance between rows `rowOf t p` and `colOf t q` of
    batch `bOf t`. -/
theorem out_at (c : Dev nD) (t : Fin cfg0.N) (u : Fin 1) (p : Fin 2048) (q : Fin 1024) :
    outAt m c t (ix3 u p q) = Cert.Dist.distAt (V m c main_v6) (V m c main_arg1) (bOf t) (rowOf t p) (colOf t q) := by
  obtain rfl : u = 0 := Subsingleton.elim _ _
  unfold outAt scrA scrB
  refine (Tile.pay5_at _ _ _ _ p q).trans ?_
  unfold Cert.Dist.distAt Cert.Dist.wdot
  refine congrArg₂ (· - ·) (congrArg₂ (· + ·) ?_ ?_) (congrArg _ ?_)
  · refine (Tile.pay3_at _ _ p).trans (Finset.sum_congr rfl fun k _ => ?_)
    have h1 := iblk1_at m c (rowStart t) p k
    have h0 := iblk0_at m c (rowStart t) k
    rw [bOf_rowStart, rowOf_rowStart] at h1
    rw [bOf_rowStart] at h0
    exact congrArg₂ (· * ·) (congrArg₂ (· * ·) h1 h0) h1
  · refine Finset.sum_congr rfl fun k _ => ?_
    exact congrArg₂ (· * ·) (congrArg₂ (· * ·) (iblk2_at m c t q k) (iblk0_at m c t k)) (iblk2_at m c t q k)
  · refine Finset.sum_congr rfl fun k _ => ?_
    have h1 := iblk1_at m c (rowStart t) p k
    have h0 := iblk0_at m c (rowStart t) k
    rw [bOf_rowStart, rowOf_rowStart] at h1
    rw [bOf_rowStart] at h0
    exact congrArg₂ (· * ·) ((Tile.pay4_at _ _ p k).trans (congrArg₂ (· * ·) h1 h0)) (iblk2_at m c t q k)

/-- Where block t of the result sits: entry (u, p, q) of the block is entry (bOf t, rowOf t p, colOf t q) of the array. -/
theorem emb_at (t : Fin cfg0.N) (u : Fin 1) (p : Fin 2048) (q : Fin 1024) :
    ((cfg0.win 3).blk t).view.emb (ix3 u p q) = ix3 (n0 := 4) (n1 := 4096) (n2 := 4096) (bOf t) (rowOf t p) (colOf t q) := by
  obtain ⟨-, -, -, ⟨e0, e1, e2⟩⟩ := idx_facts t
  have hu : u.val = 0 := by omega
  refine funext fun a => Fin.ext ?_
  match a with
  | ⟨0, _⟩ => show win0_3.index t (0 : Fin 3) * 1 + 1 * u.val = t.val / 8; omega
  | ⟨1, _⟩ => show win0_3.index t (1 : Fin 3) * 2048 + 1 * p.val = t.val / 4 % 2 * 2048 + p.val; omega
  | ⟨2, _⟩ => show win0_3.index t (2 : Fin 3) * 1024 + 1 * q.val = t.val % 4 * 1024 + q.val; omega

/-- What point t writes back is block t of the distance array. -/
theorem flushed_eq (c : Dev nD) (t : Fin cfg0.N) :
    (dats m 0 c).flushed 3 t = ((cfg0.win 3).blk t).view.read (Elt Ideal) (Cert.Dist.dist (V m c main_v6) (V m c main_arg1)) := by
  show (cfg0.win 3).cut (grid0.coords t) ((dats m 0 c).after 3 t) = _
  rw [after0_3]
  funext y
  show outAt m c t y = Cert.Dist.dist (V m c main_v6) (V m c main_arg1) (((cfg0.win 3).blk t).view.emb y)
  have hy : (y : S1x2048x1024.Idx) = ix3 (n0 := 1) (n1 := 2048) (n2 := 1024) (y 0) (y 1) (y 2) := eq_ix3 (n0 := 1) (n1 := 2048) (n2 := 1024) y
  rw [hy, emb_at t (y 0) (y 1) (y 2)]
  exact out_at m c t (y 0) (y 1) (y 2)

/-- An index of the result is in block t iff each coordinate is in the block's range. -/
theorem mem_blk (t : Fin cfg0.N) (i : S4x4096x4096.Idx) :
    i ∈ ((cfg0.win 3).blk t).view.set ↔ ∀ a : Fin 3, win0_3.index t a * S1x2048x1024.size a ≤ (i a).val ∧ (i a).val < win0_3.index t a * S1x2048x1024.size a + S1x2048x1024.size a := by
  show i ∈ ((View.whole main_v7).slice (win0_3.rect t)).set ↔ _
  rw [View.set_slice_whole, Rect.mem_set_unit]
  exact Iff.rfl

/-- Every index of the result is in the block of the point 8·b + 4·(r / 2048) + s / 1024. -/
theorem cover (i : S4x4096x4096.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 4096 := (i 2).isLt
  obtain ⟨t, ht⟩ : ∃ t : Fin cfg0.N, t.val = (i 0).val * 8 + (i 1).val / 2048 * 4 + (i 2).val / 1024 :=
    ⟨⟨(i 0).val * 8 + (i 1).val / 2048 * 4 + (i 2).val / 1024, by rw [hN]; omega⟩, rfl⟩
  obtain ⟨-, -, -, ⟨e0, e1, e2⟩⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 1024 ≤ (i 2).val ∧ (i 2).val < win0_3.index t (2 : Fin 3) * 1024 + 1024; omega

/-- The result array after the run. -/
theorem final (c : Dev nD) : (dats m 0 c).arrAt 3 cfg0.N = Cert.Dist.dist (V m c main_v6) (V m c main_arg1) :=
  (dats m 0 c).arrAt_eq_of_cover 3 _ (fun t _ => flushed_eq m c t) cover

/-- The weights the region finds are the value of the first nine host operations, which the reference computes too. -/
theorem weights_eq (c : Dev nD) :
    (V m c main_v6 : S4x1x64.Idx → EReal)
      = Cert.ReferenceIdeal.Read.val_main_v6 (F := Ideal) (m ((c : Thread nD τ).loc main_arg0)) (m ((c : Thread nD τ).loc main_arg2)) := by
  show StableHlo.after hostOps0 (fun b => m (c, b)) (Proc.devRef .tc main_v6) = _
  after_results
  rfl

/-- The kernel's run: it terminates with the result at the distance array of the reference's weights and the
    embedding, the argument arrays unchanged. -/
theorem run : θ_run defs (onTc (τ := τ) (main (F := Ideal))) ⟨m, fun _ => 0, ρ⟩ fun r => ∀ c : Dev nD,
      r.2.mem ((c.tc : Thread nD τ).loc main_v7)
        = Cert.Dist.dist (Cert.ReferenceIdeal.Read.val_main_v6 (F := Ideal) (m ((c.tc : Thread nD τ).loc main_arg0)) (m ((c.tc : Thread nD τ).loc main_arg2))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨by
      rw [← weights_eq m c, ← V_main_arg1 m c]
      exact ((h c).1 3).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Whole

end
-- ==== Proof.lean ====
/-
  The weighted pairwise squared distance kernel against its reference, on the extended reals.

  Both programs first compute the per-batch weights w = max(G, 0)^(2t) by the same nine host operations. The reference
  then forms, for every batch b and rows r, s of the embedding x,

      y[b,r,s] = ‖x_r‖²_w + ‖x_s‖²_w − 2 · ⟨x_r, x_s⟩_w,   ‖x_r‖²_w = Σ_k (x[b,r,k]·w[b,k])·x[b,r,k],   ⟨x_r, x_s⟩_w = Σ_k (x[b,r,k]·w[b,k])·x[b,s,k].

  The kernel tiles y into 4·2·4 blocks of 2048 × 1024. For each (batch, row tile) it computes the weighted row tile and
  its weighted squared norms once, at the first column tile, and keeps them in two scratch buffers for the three column
  tiles that follow; at every column tile it computes the column tile's weighted squared norms and one matrix product
  of the kept weighted row tile with the transposed column tile. Entry (p,q) of block (b,i,j) is therefore the same sum of
  the same products, in the same grouping, as y[b, 2048·i + p, 1024·j + q]: no algebraic law and no finiteness of the
  inputs is needed, only that a change of float format is the identity on the extended reals and that a matrix product
  into zero, a lane sum and the host's sum from zero are plain sums there.

  The frames: each program runs to its end without a fault and leaves its three argument arrays as they were. The
  kernel's embedding array is read through two windows (row tile and column tile), each holding half of its share.
  The idealization rewrote nothing, so there is nothing to preserve beyond the program's own text.
-/
import proofs.«134669_j14499809591883_2_alg».proof.Defs
import proofs.«134669_j14499809591883_2_alg».proof.Proof.Gen.Kernel
import proofs.«134669_j14499809591883_2_alg».proof.Proof.Gen.KernelIdeal
import proofs.«134669_j14499809591883_2_alg».proof.Proof.Gen.ReferenceIdeal
import proofs.«134669_j14499809591883_2_alg».proof.Proof.Gen.ReferenceIdeal.Run
import proofs.«134669_j14499809591883_2_alg».proof.Proof.Gen.ReferenceIdeal.Read
import proofs.«134669_j14499809591883_2_alg».proof.Proof.Gen.Pre_finite_inputs
import proofs.«134669_j14499809591883_2_alg».proof.Proof.WordLaunch
import proofs.«134669_j14499809591883_2_alg».proof.Proof.WholeArray

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Dist.frame (F := Bits) m ρ
/-- So does its reading on the extended reals. -/
theorem frame_kernelIdeal : Cert.frame_KernelIdeal := fun m ρ _ => Cert.KernelIdeal.Dist.frame (F := Ideal) m ρ
/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on G, x and t both programs end with the distance array of the same weights and the same
    embedding. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
